-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "fold_c_1048576_11863283" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048 : Shape := ⟨2, ![8, 2048]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) (main_arg2 : FVec F S8x2048x128 .f32) (main_arg3 : IVec S8x2048 1) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S8x2048x128 .f32 := Host.absf main_arg2
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  let main_c_3 : IVec S_ 1 := constantI S_ 1 1#1
  let main_v12 : IVec S_ 1 := (fun x v => Host.reduce IntOp.andi x v reducesTo_S8x2048x128_S_d0_1_2 h_S_) main_v11 main_c_3
  let main_v13 : IVec S_ 1 := andi main_v8 main_v12
  main_v13
-- ==== Kernel.lean ====
abbrev S8x2048x128 : Shape := ⟨3, ![8, 2048, 128]⟩
abbrev S8x2048 : Shape := ⟨2, ![8, 2048]⟩
abbrev S_ : Shape := ⟨0, ![]⟩
abbrev S8x1x2048 : Shape := ⟨3, ![8, 1, 2048]⟩
abbrev S1x512x128 : Shape := ⟨3, ![1, 512, 128]⟩
abbrev S1x2048x128 : Shape := ⟨3, ![1, 2048, 128]⟩
abbrev S1x1x2048 : Shape := ⟨3, ![1, 1, 2048]⟩
abbrev S512x128 : Shape := ⟨2, ![512, 128]⟩
abbrev S2048x128 : Shape := ⟨2, ![2048, 128]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048, .i1⟩
  | .hbm, ⟨4, _⟩ => ⟨S_, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x1x2048, .f32⟩
  | .hbm, ⟨10, _⟩ => ⟨S8x2048x128, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1x2048, .f32⟩
  | .local _ .vmem, ⟨7, _⟩ => ⟨S1x1x2048, .f32⟩
  | .local _ .vmem, ⟨8, _⟩ => ⟨S1x512x128, .f32⟩
  | .local _ .vmem, ⟨9, _⟩ => ⟨S1x512x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S8x2048 : S_.BroadcastsInDim S8x2048 (![] : Fin 0 → Fin S8x2048.rank)
  shapeCasts_S8x2048_S8x1x2048 : S8x2048.ShapeCasts S8x1x2048
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  reduces_S512x2048_S512 : S512x2048.Reduces [1] S512
  shapeCasts_S512_S512x1 : S512.ShapeCasts S512x1
  broadcasts_S512x1_S512x2048 : S512x1.Broadcasts S512x2048
  broadcasts_S1x2048_S512x2048 : S1x2048.Broadcasts S512x2048
  shapeCasts_S512x128_S1x512x128 : S512x128.ShapeCasts S1x512x128
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S8x2048x128.size a
  hwx0_0 : ∀ i : grid0.Coords, EltTy.bits .f32 = 32 ∨ (Rect.block (s := S8x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x2048.size a
  hwx0_3 : ∀ i : grid0.Coords, EltTy.bits .f32 = 32 ∨ (Rect.block (s := S8x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S8x2048x128.size a
  hwx0_4 : ∀ i : grid0.Coords, EltTy.bits .f32 = 32 ∨ (Rect.block (s := S8x2048x128) S1x512x128.size (cc0_transform_4 i) (hinb0_4 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048 : Shape := ⟨2, ![8, 2048]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048, .i1⟩
  | .hbm, ⟨4, _⟩ => ⟨S8x2048x2048, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x1x2048, .i1⟩
  | .hbm, ⟨15, _⟩ => ⟨S_, .f32⟩
  | .hbm, ⟨16, _⟩ => ⟨S_, .f32⟩
  | .hbm, ⟨17, _⟩ => ⟨S8x2048x2048, .i1⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Attention.lean ====
/-
  Scaled dot-product attention with a key-padding mask, as ONE function of the argument arrays on the extended reals.

  For a query row `q`, keys `K j`, values `V j` and a mask bit per key (1 = the key is left out):
    score j  = (∑ κ, q κ · K j κ) / D            (D the f32 word nearest to √128)
    weight j = mask j ? 0 : exp (score j − max over all keys of score)
    out d    = ∑ j, (weight j / ∑ j', weight j') · V j d.
  The maximum is taken over ALL keys, masked or not (the mask acts after the exponential). A program that multiplies the
  exponentials by a 0/1 "keep" factor instead of selecting computes the same weights (`mul_keep`), and one that multiplies
  the scores by the exact reciprocal 1/D instead of dividing by D computes the same scores (`mul_inv_divisor`).
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-! ## The constants -/

/-- The divisor of the scores: the f32 word `0x413504F3`, the float nearest to √128. -/
def divisor : EReal := Ideal.ofBits .f32 0x413504F3#32

/-- It denotes the dyadic rational 11863283 / 2²⁰. -/
theorem divisor_eq : divisor = ((11863283 / 1048576 : ℝ) : EReal) := by
  unfold divisor
  simp [Ideal.ofBits, Ideal.ieee, -EReal.coe_mul]; norm_num

/-- Multiplying by the exact reciprocal of the divisor IS dividing by it, on every extended real. -/
theorem mul_inv_divisor (x : EReal) : x * ((1048576 / 11863283 : ℝ) : EReal) = Ideal.div x divisor := by
  rw [divisor_eq, Ideal.div_coe (by norm_num)]
  congr 2
  norm_num

/-- The f32 word of `1.0` denotes 1. -/
theorem one_word : Ideal.ofBits .f32 0x3F800000#32 = 1 := by
  simp [Ideal.ofBits, Ideal.ieee, -EReal.coe_mul]; norm_num

/-- A factor that is 0 where the mask bit is set and 1 elsewhere selects: `e · (c ? 0 : 1) = (c ? 0 : e)`, for any
    extended real `e` (`e · 0 = 0` also at the infinities). -/
theorem mul_keep (c : BitVec 1) (e : EReal) :
    e * Scalar.select c (Ideal.ofBits .f32 0x00000000#32) (Ideal.ofBits .f32 0x3F800000#32) = Scalar.select c 0 e := by
  by_cases h : c = 1#1
  · subst h; rw [select_one, select_one, Ideal.ofBits_zero_f32, mul_zero]
  · rw [eq_zero_of_ne_one h, select_zero, select_zero, one_word, mul_one]

/-! ## One query row -/

/-- The scaled score of the query row against key `j`. -/
def score (q : Fin 128 → EReal) (K : Fin 2048 → Fin 128 → EReal) (j : Fin 2048) : EReal :=
  Ideal.div (∑ κ : Fin 128, q κ * K j κ) divisor

/-- The maximum of a row of scores, from −∞. -/
def rowMax (s : Fin 2048 → EReal) : EReal :=
  (Finset.univ : Finset (Fin 2048)).fold max (Ideal.ofBits .f32 0xFF800000#32) s

/-- The shifted exponential of the score of key `j`. -/
def expo (q : Fin 128 → EReal) (K : Fin 2048 → Fin 128 → EReal) (j : Fin 2048) : EReal :=
  Ideal.exp (score q K j - rowMax (score q K))

/-- The unnormalised weight of key `j`: zero where the mask bit is set. -/
def weight (q : Fin 128 → EReal) (K : Fin 2048 → Fin 128 → EReal) (mask : Fin 2048 → BitVec 1) (j : Fin 2048) : EReal :=
  Scalar.select (mask j) 0 (expo q K j)

/-- The same weight by a 0/1 factor. -/
def weightBy (q : Fin 128 → EReal) (K : Fin 2048 → Fin 128 → EReal) (keep : Fin 2048 → EReal) (j : Fin 2048) : EReal :=
  expo q K j * keep j

theorem weightBy_eq (q : Fin 128 → EReal) (K : Fin 2048 → Fin 128 → EReal) (mask : Fin 2048 → BitVec 1)
    (keep : Fin 2048 → EReal)
    (hk : ∀ j, keep j = Scalar.select (mask j) (Ideal.ofBits .f32 0x00000000#32) (Ideal.ofBits .f32 0x3F800000#32)) :
    weightBy q K keep = weight q K mask := by
  funext j
  unfold weightBy weight
  rw [hk j, mul_keep]

/-- The weights normalised by their sum and applied to the values, at output column `d`. -/
def mix (w : Fin 2048 → EReal) (V : Fin 2048 → Fin 128 → EReal) (d : Fin 128) : EReal :=
  ∑ j : Fin 2048, Ideal.div (w j) (∑ j' : Fin 2048, w j') * V j d

/-! ## The whole arrays -/

abbrev Sqkv : Shape := ⟨3, ![8, 2048, 128]⟩
abbrev Smask : Shape := ⟨2, ![8, 2048]⟩

/-- Attention of the whole arrays: batch `i 0`, query row `i 1`, output column `i 2`. -/
def attention (q k v : Sqkv.Idx → EReal) (mask : Smask.Idx → BitVec 1) : Sqkv.Idx → EReal := fun i =>
  mix (weight (fun κ => q (ix3 (i 0) (i 1) κ)) (fun j κ => k (ix3 (i 0) j κ)) (fun j => mask (ix2 (i 0) j)))
    (fun j d => v (ix3 (i 0) j d)) (i 2)

end Cert.Attention

end
-- ==== Proof.Reference.lean ====
/-
  The reference program's result, read one operation at a time, is the attention function of Attention.lean.

  At batch `b` and query row `r` every stage of the reference is the matching quantity of the one-row definitions:
  the batched product of `q` and `k` over the last axis divided by the constant is `score`; the reduction by `max`
  over the key axis from −∞ is `rowMax`; the exponential of the difference is `expo`; the select on the mask bit of the
  key is `weight`; the sum over the key axis from zero is the normaliser; the quotient times `v`, summed over the keys,
  is `mix`.
-/
import proofs.«133213_j64974265254301_2_alg».proof.Proof.Gen.ReferenceIdeal.Read
import proofs.«133213_j64974265254301_2_alg».proof.Proof.Attention
import Idealize.ShloMosaic.PureOps.Reduce

noncomputable section

namespace Cert.Attention.Reference

open Cert.ReferenceIdeal Cert.ReferenceIdeal.Gen Cert.ReferenceIdeal.Read Cert.Attention Idealize.ShloMosaic Idealize.ShloMosaic.ValueIdx

variable (x0 x1 x2 : (⟨S8x2048x128, .f32⟩ : BufTy).Contents (Elt Ideal)) (x3 : (⟨S8x2048, .i1⟩ : BufTy).Contents (Elt Ideal))

/-- The query row, the keys and the mask bits of batch `b`, as the one-row definitions take them. -/
abbrev qRow (b : Fin 8) (r : Fin 2048) : Fin 128 → EReal := fun κ => x0 (ix3 b r κ)
abbrev keys (b : Fin 8) : Fin 2048 → Fin 128 → EReal := fun j κ => x1 (ix3 b j κ)
abbrev bits (b : Fin 8) : Fin 2048 → BitVec 1 := fun j => x3 (ix2 b j)

/-! ## The index maps of the stages, at coordinates -/

theorem lidx0 (b : Fin 8) (r j : Fin 2048) (κ : Fin 128) : lidx_main_v0 (ix3 b r j) κ = ix3 b r κ :=
  funext fun a => Fin.ext (by match a with | ⟨0, _⟩ => rfl | ⟨1, _⟩ => rfl | ⟨2, _⟩ => rfl)
theorem ridx0 (b : Fin 8) (r j : Fin 2048) (κ : Fin 128) : ridx_main_v0 (ix3 b r j) κ = ix3 b j κ :=
  funext fun a => Fin.ext (by match a with | ⟨0, _⟩ => rfl | ⟨1, _⟩ => rfl | ⟨2, _⟩ => rfl)
theorem idx45 (b : Fin 8) (r j : Fin 2048) : idx_main_v4 (idx_main_v5 (ix3 b r j)) = ix2 b r :=
  funext fun a => Fin.ext (by match a with | ⟨0, _⟩ => rfl | ⟨1, _⟩ => rfl)
theorem idx8 (b : Fin 8) (r j : Fin 2048) : idx_main_v8 (idx_main_call0_v1 (ix3 b r j)) = ix2 b j :=
  funext fun a => Fin.ext (by match a with | ⟨0, _⟩ => rfl | ⟨1, _⟩ => rfl)
theorem idx10 (b : Fin 8) (r j : Fin 2048) : idx_main_v10 (ix2 b r) j = ix3 b r j :=
  funext fun a => Fin.ext (by match a with | ⟨0, _⟩ => rfl | ⟨1, _⟩ => rfl | ⟨2, _⟩ => rfl)
theorem idx1112 (b : Fin 8) (r j : Fin 2048) : idx_main_v11 (idx_main_v12 (ix3 b r j)) = ix2 b r :=
  funext fun a => Fin.ext (by match a with | ⟨0, _⟩ => rfl | ⟨1, _⟩ => rfl)
theorem lidx14 (b : Fin 8) (r j : Fin 2048) (d : Fin 128) : lidx_main_v14 (ix3 b r d) j = ix3 b r j :=
  funext fun a => Fin.ext (by match a with | ⟨0, _⟩ => rfl | ⟨1, _⟩ => rfl | ⟨2, _⟩ => rfl)
theorem ridx14 (b : Fin 8) (r j : Fin 2048) (d : Fin 128) : ridx_main_v14 (ix3 b r d) j = ix3 b j d :=
  funext fun a => Fin.ext (by match a with | ⟨0, _⟩ => rfl | ⟨1, _⟩ => rfl | ⟨2, _⟩ => rfl)

/-! ## The stages -/

/-- The scaled product at (b, r, j) is the score of row (b, r) against key j. -/
theorem score_at (b : Fin 8) (r j : Fin 2048) :
    val_main_v2 (F := Ideal) x0 x1 (ix3 b r j) = score (qRow x0 b r) (keys x1 b) j := by
  rw [val_main_v2_apply, val_main_v0_apply, val_main_v1_apply, val_main_cst_apply]
  simp only [lidx0, ridx0]
  rfl

/-- The reduction by the maximum over the key axis, at (b, r), is the row's maximum. -/
theorem max_at (b : Fin 8) (r : Fin 2048) :
    val_main_v3 (F := Ideal) x0 x1 (ix2 b r) = rowMax (score (qRow x0 b r) (keys x1 b)) := by
  unfold val_main_v3
  rw [Host.reduce_eq_fold_single FloatOps.maximumf _ _ reducesTo_S8x2048x2048_S8x2048_d2
    (by decide : S8x2048x2048.Reduces [2] S8x2048) h_S_ (ix2 b r)]
  unfold rowMax
  show Finset.fold max (Ideal.ofBits .f32 0xFF800000#32) _ Finset.univ = _
  refine congrArg (fun f => Finset.fold max (Ideal.ofBits .f32 0xFF800000#32) f (Finset.univ : Finset (Fin 2048))) ?_
  funext j
  show val_main_v2 (F := Ideal) x0 x1 _ = _
  rw [← score_at x0 x1 b r j]
  exact congrArg _ (funext fun a => Fin.ext (by match a with | ⟨0, _⟩ => rfl | ⟨1, _⟩ => rfl | ⟨2, _⟩ => rfl))

/-- The exponential of the shifted score. -/
theorem expo_at (b : Fin 8) (r j : Fin 2048) :
    val_main_v7 (F := Ideal) x0 x1 (ix3 b r j) = expo (qRow x0 b r) (keys x1 b) j := by
  rw [val_main_v7_apply, val_main_v6_apply, val_main_v5_apply, val_main_v4_apply, idx45, score_at, max_at]
  rfl

/-- The select on the key's mask bit. -/
theorem weight_at (b : Fin 8) (r j : Fin 2048) :
    val_main_v9 (F := Ideal) x0 x1 x3 (ix3 b r j) = weight (qRow x0 b r) (keys x1 b) (bits x3 b) j := by
  rw [val_main_v9_apply, val_main_call0_v1_apply, val_main_v8_apply, idx8, val_main_call0_v2_apply,
    val_main_call0_v0_apply, val_main_cst_1_apply, expo_at]
  show Scalar.select (x3 (ix2 b j)) (Ideal.ofBits .f32 0x00000000#32) _ = _
  rw [Ideal.ofBits_zero_f32]
  rfl

/-- The sum over the key axis from zero. -/
theorem total_at (b : Fin 8) (r : Fin 2048) :
    val_main_v10 (F := Ideal) x0 x1 x3 (ix2 b r) = ∑ j : Fin 2048, weight (qRow x0 b r) (keys x1 b) (bits x3 b) j := by
  rw [val_main_v10_apply, val_main_cst_2_apply]
  show Ideal.ofBits .f32 0x00000000#32 + _ = _
  rw [Ideal.ofBits_zero_f32, zero_add]
  exact Finset.sum_congr rfl fun j _ => by rw [idx10, weight_at]

/-- The normalised weight. -/
theorem share_at (b : Fin 8) (r j : Fin 2048) :
    val_main_v13 (F := Ideal) x0 x1 x3 (ix3 b r j)
      = Ideal.div (weight (qRow x0 b r) (keys x1 b) (bits x3 b) j) (∑ j' : Fin 2048, weight (qRow x0 b r) (keys x1 b) (bits x3 b) j') := by
  rw [val_main_v13_apply, val_main_v12_apply, val_main_v11_apply, idx1112, weight_at, total_at]
  rfl

/-- The reference's result is the attention function of its arguments. -/
theorem result_eq : val_main_v14 (F := Ideal) x0 x1 x2 x3 = attention x0 x1 x2 x3 := by
  funext i
  obtain ⟨b, r, d, rfl⟩ : ∃ (b : Fin 8) (r : Fin 2048) (d : Fin 128), i = ix3 b r d := ⟨i 0, i 1, i 2, eq_ix3 i⟩
  rw [val_main_v14_apply]
  show _ = mix (weight (qRow x0 b r) (keys x1 b) (bits x3 b)) (fun j d => x2 (ix3 b j d)) d
  unfold mix
  exact Finset.sum_congr rfl fun j _ => by rw [lidx14, ridx14, share_at]

end Cert.Attention.Reference

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.RowBlock.lean ====
/-
  What one grid point of the kernel computes: from a block of 512 query rows, the 2048 keys and values of the batch and
  the batch's row of 0/1 keep factors, the block of 512 output rows — each output row the attention of its query row
  (Attention.lean), with the weights taken by the keep factor.

  The body is cut into its five stages (`scores`, `shifted`, `kept`, `shares`, `outBlock`); the generated payload is
  their composition by unfolding. Each stage is read at an index: the two matrix products as sums over their
  contracted coordinate, the two lane reductions as the row's maximum from −∞ and the row's sum, the shape casts and
  broadcasts at coordinates. The multiplication of the scores by the named constant 1/D is the division by D.
-/
import proofs.«133213_j64974265254301_2_alg».proof.Proof.Gen.KernelIdeal.Skeleton
import proofs.«133213_j64974265254301_2_alg».proof.Proof.Attention
import proofs.«133213_j64974265254301_2_alg».proof.Proof.LibColumn
import Idealize.ShloMosaic.Lib.ValueLayout
import Idealize.ShloMosaic.Lib.Pipeline.Value
import Idealize.ShloMosaic.PureOps.IdealRules
import Idealize.ShloMosaic.PureOps.Ideal.Laws

noncomputable section

namespace Cert.Attention.Block

open Cert.KernelIdeal Cert.KernelIdeal.Gen Cert.Attention
open Idealize.ShloMosaic Idealize.ShloMosaic.ValueIdx Idealize.ShloMosaic.ColumnLayout

/-! ## The two matrix products at an index -/

abbrev dotQK := dot_S512x128_S2048x128_S512x2048_1_1_0_0_n_n
abbrev dotPV := dot_S512x2048_S2048x128_S512x128_1_0_0_1_n_n

theorem qk_lhs0 (i : S512x2048.Idx) (c : dotQK.contr.Idx) : (dotQK.lhsIdx i c 0).val = (i 0).val := by
  unfold DotDims.lhsIdx
  rw [dif_neg (show ¬(0 : Fin S512x128.rank) ∈ dotQK.lhsBatch by decide),
    dif_pos (show (0 : Fin S512x128.rank) ∈ dotQK.lhsNonContracting by decide)]
  rfl
theorem qk_lhs1 (i : S512x2048.Idx) (c : dotQK.contr.Idx) : (dotQK.lhsIdx i c 1).val = (c ⟨0, by decide⟩).val :=
  dotQK.lhsIdx_val_of_single rfl i c
theorem qk_rhs0 (i : S512x2048.Idx) (c : dotQK.contr.Idx) : (dotQK.rhsIdx i c 0).val = (i 1).val := by
  unfold DotDims.rhsIdx
  rw [dif_neg (show ¬(0 : Fin S2048x128.rank) ∈ dotQK.rhsBatch by decide),
    dif_pos (show (0 : Fin S2048x128.rank) ∈ dotQK.rhsNonContracting by decide)]
  rfl
theorem qk_rhs1 (i : S512x2048.Idx) (c : dotQK.contr.Idx) : (dotQK.rhsIdx i c 1).val = (c ⟨0, by decide⟩).val :=
  dotQK.rhsIdx_val_of_single rfl i c

/-- The product of the query rows with the transposed keys into a zero accumulator, at (r, j): the sum over the 128
    shared coordinates. -/
theorem qk_at (a : FVec Ideal S512x128 .bf16) (w : FVec Ideal S2048x128 .bf16) (r : Fin 512) (j : Fin 2048) :
    matmul dotQK none a w (constant (F := Ideal) S512x2048 .f32 0x00000000#32) (ix2 r j)
      = ∑ κ : Fin 128, a (ix2 r κ) * w (ix2 j κ) := by
  show FloatOps.matmul dotQK none a w (constant (F := Ideal) S512x2048 .f32 0x00000000#32) (ix2 r j) = _
  rw [Ideal.matmul_constant_zero_apply, ← Equiv.sum_comp (contrEquiv1 dotQK 128 rfl rfl).symm]
  refine Finset.sum_congr rfl fun κ _ => ?_
  have hk := contrEquiv1_symm_val dotQK 128 rfl rfl κ
  have el : dotQK.lhsIdx (ix2 r j) ((contrEquiv1 dotQK 128 rfl rfl).symm κ) = ix2 r κ := funext fun x => Fin.ext (by
    match x with
    | ⟨0, _⟩ => exact qk_lhs0 _ _
    | ⟨1, _⟩ => exact (qk_lhs1 _ _).trans hk)
  have er : dotQK.rhsIdx (ix2 r j) ((contrEquiv1 dotQK 128 rfl rfl).symm κ) = ix2 j κ := funext fun x => Fin.ext (by
    match x with
    | ⟨0, _⟩ => exact qk_rhs0 _ _
    | ⟨1, _⟩ => exact (qk_rhs1 _ _).trans hk)
  rw [el, er]

theorem pv_lhs0 (i : S512x128.Idx) (c : dotPV.contr.Idx) : (dotPV.lhsIdx i c 0).val = (i 0).val := by
  unfold DotDims.lhsIdx
  rw [dif_neg (show ¬(0 : Fin S512x2048.rank) ∈ dotPV.lhsBatch by decide),
    dif_pos (show (0 : Fin S512x2048.rank) ∈ dotPV.lhsNonContracting by decide)]
  rfl
theorem pv_lhs1 (i : S512x128.Idx) (c : dotPV.contr.Idx) : (dotPV.lhsIdx i c 1).val = (c ⟨0, by decide⟩).val :=
  dotPV.lhsIdx_val_of_single rfl i c
theorem pv_rhs0 (i : S512x128.Idx) (c : dotPV.contr.Idx) : (dotPV.rhsIdx i c 0).val = (c ⟨0, by decide⟩).val :=
  dotPV.rhsIdx_val_of_single rfl i c
theorem pv_rhs1 (i : S512x128.Idx) (c : dotPV.contr.Idx) : (dotPV.rhsIdx i c 1).val = (i 1).val := by
  unfold DotDims.rhsIdx
  rw [dif_neg (show ¬(1 : Fin S2048x128.rank) ∈ dotPV.rhsBatch by decide),
    dif_pos (show (1 : Fin S2048x128.rank) ∈ dotPV.rhsNonContracting by decide)]
  rfl

/-- The product of the normalised weights with the values into a zero accumulator, at (r, d): the sum over the keys. -/
theorem pv_at (p : FVec Ideal S512x2048 .bf16) (w : FVec Ideal S2048x128 .bf16) (r : Fin 512) (d : Fin 128) :
    matmul dotPV none p w (constant (F := Ideal) S512x128 .f32 0x00000000#32) (ix2 r d)
      = ∑ j : Fin 2048, p (ix2 r j) * w (ix2 j d) := by
  show FloatOps.matmul dotPV none p w (constant (F := Ideal) S512x128 .f32 0x00000000#32) (ix2 r d) = _
  rw [Ideal.matmul_constant_zero_apply, ← Equiv.sum_comp (contrEquiv1 dotPV 2048 rfl rfl).symm]
  refine Finset.sum_congr rfl fun j _ => ?_
  have hk := contrEquiv1_symm_val dotPV 2048 rfl rfl j
  have el : dotPV.lhsIdx (ix2 r d) ((contrEquiv1 dotPV 2048 rfl rfl).symm j) = ix2 r j := funext fun x => Fin.ext (by
    match x with
    | ⟨0, _⟩ => exact pv_lhs0 _ _
    | ⟨1, _⟩ => exact (pv_lhs1 _ _).trans hk)
  have er : dotPV.rhsIdx (ix2 r d) ((contrEquiv1 dotPV 2048 rfl rfl).symm j) = ix2 j d := funext fun x => Fin.ext (by
    match x with
    | ⟨0, _⟩ => exact (pv_rhs0 _ _).trans hk
    | ⟨1, _⟩ => exact pv_rhs1 _ _)
  rw [el, er]

/-! ## The two lane reductions at a row -/

/-- The reduction by the maximum along the keys, at row r: the row's maximum from −∞. -/
theorem rmax_at (s : FVec Ideal S512x2048 .f32) (r : Fin 512) :
    multiReduction .maximumf [1] S512 s 0xFF800000#32 reduces_S512x2048_S512 (.inl rfl) rfl (ix1 r)
      = rowMax (fun j => s (ix2 r j)) := by
  refine (Ideal.multiReduction_maximumf_single s 0xFF800000#32 reduces_S512x2048_S512 (.inl rfl) rfl (ix1 r)).trans ?_
  unfold rowMax
  refine congrArg (fun f => Finset.fold max (Ideal.ofBits .f32 0xFF800000#32) f (Finset.univ : Finset (Fin 2048))) ?_
  funext j
  exact congrArg s (funext fun x => Fin.ext (by match x with | ⟨0, _⟩ => rfl | ⟨1, _⟩ => rfl))

/-- The reduction by the sum along the keys, at row r: the row's sum. -/
theorem rsum_at (s : FVec Ideal S512x2048 .f32) (r : Fin 512) :
    multiReduction .add [1] S512 s 0x00000000#32 reduces_S512x2048_S512 (.inl rfl) rfl (ix1 r)
      = ∑ j : Fin 2048, s (ix2 r j) := by
  refine (Ideal.multiReduction_add_single s 0x00000000#32 reduces_S512x2048_S512 (.inl rfl) rfl (ix1 r)).trans ?_
  refine Finset.sum_congr rfl fun j _ => ?_
  exact congrArg s (funext fun x => Fin.ext (by match x with | ⟨0, _⟩ => rfl | ⟨1, _⟩ => rfl))

/-! ## The named constant -/

/-- The kernel's scale is named the exact reciprocal of the divisor. -/
theorem inv_named : Named.named (F := Ideal) Cert.KernelIdeal.κ "fold_c_1048576_11863283" (φ := .f32) 0x3DB504F3#32
    = ((1048576 / 11863283 : ℝ) : EReal) :=
  IdealRules.named_const.ideal_named_scalar _ _ _ _ rfl

/-! ## The stages of the body -/

variable (x0 : Vec Ideal S1x512x128 .f32) (x1 x2 : Vec Ideal S1x2048x128 .f32) (x3 : Vec Ideal S1x1x2048 .f32)

/-- The scaled scores of the block's 512 query rows against the 2048 keys. -/
def scores : FVec Ideal S512x2048 .f32 :=
  mulf (matmul dotQK none (truncf .bf16 (shapeCast S512x128 x0 shapeCasts_S1x512x128_S512x128) bitsLt_bf16_f32)
      (truncf .bf16 (shapeCast S2048x128 x1 shapeCasts_S1x2048x128_S2048x128) bitsLt_bf16_f32)
      (constant S512x2048 .f32 0x00000000#32))
    (broadcast S512x2048 (Named.named κ "fold_c_1048576_11863283" 0x3DB504F3#32))

/-- The exponentials of the scores less their row's maximum. -/
def shifted (s : FVec Ideal S512x2048 .f32) : FVec Ideal S512x2048 .f32 :=
  exp (subf s (broadcastTo S512x2048 (shapeCast S512x1
    (multiReduction .maximumf [1] S512 s 0xFF800000#32 reduces_S512x2048_S512 (.inl rfl) rfl) shapeCasts_S512_S512x1)
    broadcasts_S512x1_S512x2048))

/-- Each column multiplied by its key's keep factor. -/
def kept (e : FVec Ideal S512x2048 .f32) : FVec Ideal S512x2048 .f32 :=
  mulf e (broadcastTo S512x2048 (shapeCast S1x2048 x3 shapeCasts_S1x1x2048_S1x2048) broadcasts_S1x2048_S512x2048)

/-- Each row divided by its sum. -/
def shares (w : FVec Ideal S512x2048 .f32) : FVec Ideal S512x2048 .f32 :=
  divf w (broadcastTo S512x2048 (shapeCast S512x1
    (multiReduction .add [1] S512 w 0x00000000#32 reduces_S512x2048_S512 (.inl rfl) rfl) shapeCasts_S512_S512x1)
    broadcasts_S512x1_S512x2048)

/-- The weights applied to the values, as the stored block. -/
def outBlock (a : FVec Ideal S512x2048 .f32) : FVec Ideal S1x512x128 .f32 :=
  shapeCast S1x512x128 (matmul dotPV none (truncf .bf16 a bitsLt_bf16_f32)
      (truncf .bf16 (shapeCast S2048x128 x2 shapeCasts_S1x2048x128_S2048x128) bitsLt_bf16_f32)
      (constant S512x128 .f32 0x00000000#32))
    shapeCasts_S512x128_S1x512x128

/-- The body's one stored value is the composition of the stages. -/
theorem payload_eq : k0_pay1 (F := Ideal) x0 x1 x2 x3 = outBlock x2 (shares (kept x3 (shifted (scores x0 x1)))) := rfl

/-! ## Each stage at an index -/

/-- The block's query row r, the batch's keys, values and keep factors, as the one-row definitions take them. -/
abbrev qRow (r : Fin 512) : Fin 128 → EReal := fun κ => x0 (ix3 (0 : Fin 1) r κ)
abbrev keys : Fin 2048 → Fin 128 → EReal := fun j κ => x1 (ix3 (0 : Fin 1) j κ)
abbrev vals : Fin 2048 → Fin 128 → EReal := fun j d => x2 (ix3 (0 : Fin 1) j d)
abbrev keep : Fin 2048 → EReal := fun j => x3 (ix3 (0 : Fin 1) (0 : Fin 1) j)

theorem scores_at (r : Fin 512) (j : Fin 2048) : scores x0 x1 (ix2 r j) = score (qRow x0 r) (keys x1) j := by
  unfold scores score
  rw [mulf_apply, broadcast_apply, qk_at, inv_named, mul_inv_divisor]
  refine congrArg (fun z => Ideal.div z divisor) (Finset.sum_congr rfl fun κ _ => ?_)
  rw [truncf_apply, truncf_apply, shapeCast_1ab_ab_apply, shapeCast_1ab_ab_apply]

theorem shifted_at (s : FVec Ideal S512x2048 .f32) (r : Fin 512) (j : Fin 2048) :
    shifted s (ix2 r j) = Ideal.exp (s (ix2 r j) - rowMax (fun j' => s (ix2 r j'))) := by
  unfold shifted
  show Ideal.exp (s (ix2 r j) - broadcastTo S512x2048 _ broadcasts_S512x1_S512x2048 (ix2 r j)) = _
  rw [broadcastTo_a1_ab_apply, shapeCast_a_a1_apply, rmax_at]

theorem kept_at (e : FVec Ideal S512x2048 .f32) (r : Fin 512) (j : Fin 2048) :
    kept x3 e (ix2 r j) = e (ix2 r j) * keep x3 j := by
  unfold kept
  rw [mulf_apply, broadcastTo_1b_ab_apply, shapeCast_1ab_ab_apply]

theorem shares_at (w : FVec Ideal S512x2048 .f32) (r : Fin 512) (j : Fin 2048) :
    shares w (ix2 r j) = Ideal.div (w (ix2 r j)) (∑ j' : Fin 2048, w (ix2 r j')) := by
  unfold shares
  rw [divf_apply, broadcastTo_a1_ab_apply, shapeCast_a_a1_apply, rsum_at]

theorem outBlock_at (a : FVec Ideal S512x2048 .f32) (u : Fin 1) (r : Fin 512) (d : Fin 128) :
    outBlock x2 a (ix3 u r d) = ∑ j : Fin 2048, a (ix2 r j) * vals x2 j d := by
  unfold outBlock
  rw [shapeCast_ab_1ab_apply, pv_at]
  refine Finset.sum_congr rfl fun j _ => ?_
  rw [truncf_apply, truncf_apply, shapeCast_1ab_ab_apply]

/-! ## The block -/

/-- The stored block, at row r and column d, is the attention of query row r with the weights taken by the keep factors. -/
theorem payload_at (u : Fin 1) (r : Fin 512) (d : Fin 128) :
    k0_pay1 (F := Ideal) x0 x1 x2 x3 (ix3 u r d)
      = mix (weightBy (qRow x0 r) (keys x1) (keep x3)) (vals x2) d := by
  rw [payload_eq, outBlock_at]
  unfold mix
  refine Finset.sum_congr rfl fun j _ => ?_
  have hw : ∀ j' : Fin 2048, kept x3 (shifted (scores x0 x1)) (ix2 r j') = weightBy (qRow x0 r) (keys x1) (keep x3) j' := by
    intro j'
    rw [kept_at, shifted_at]
    unfold weightBy expo
    simp only [scores_at]
  rw [shares_at, hw j]
  simp only [hw]

/-- So a block of query rows `o + r` of batch `b` of whole arrays `q`, with that batch's keys, values and the keep factors
    of its mask bits, is stored as rows `o + r` of batch `b` of the attention of the whole arrays. -/
theorem block_eq (q k v : Sqkv.Idx → EReal) (mask : Smask.Idx → BitVec 1) (b : Fin 8) (o : ℕ)
    (ho : ∀ r : Fin 512, o + r.val < 2048)
    (h0 : ∀ (r : Fin 512) (κ : Fin 128), x0 (ix3 (0 : Fin 1) r κ) = q (ix3 b ⟨o + r.val, ho r⟩ κ))
    (h1 : ∀ (j : Fin 2048) (κ : Fin 128), x1 (ix3 (0 : Fin 1) j κ) = k (ix3 b j κ))
    (h2 : ∀ (j : Fin 2048) (d : Fin 128), x2 (ix3 (0 : Fin 1) j d) = v (ix3 b j d))
    (h3 : ∀ j : Fin 2048, x3 (ix3 (0 : Fin 1) (0 : Fin 1) j)
      = Scalar.select (mask (ix2 b j)) (Ideal.ofBits .f32 0x00000000#32) (Ideal.ofBits .f32 0x3F800000#32))
    (u : Fin 1) (r : Fin 512) (d : Fin 128) :
    k0_pay1 (F := Ideal) x0 x1 x2 x3 (ix3 u r d) = attention q k v mask (ix3 b ⟨o + r.val, ho r⟩ d) := by
  rw [payload_at, weightBy_eq (qRow x0 r) (keys x1) (fun j => mask (ix2 b j)) (keep x3) h3]
  have e0 : qRow x0 r = fun κ => q (ix3 b ⟨o + r.val, ho r⟩ κ) := funext (h0 r)
  have e1 : keys x1 = fun j κ => k (ix3 b j κ) := funext fun j => funext (h1 j)
  have e2 : vals x2 = fun j d => v (ix3 b j d) := funext fun j => funext (h2 j)
  rw [e0, e1, e2]
  rfl

end Cert.Attention.Block

end
-- ==== Proof.Tiles.lean ====
/-
  From grid points to the whole result array.

  The grid has one point per (batch b, block of 512 query rows qi). At that point the kernel reads rows
  512·qi … 512·qi + 511 of batch b of the queries, all 2048 rows of batch b of the keys and of the values, and row b of
  the keep factors; it writes rows 512·qi … 512·qi + 511 of batch b of the result. The keep factors were laid out by
  the host operations before the call: 0 where the mask bit of (b, j) is set, 1 elsewhere, as an [8, 1, 2048] array.
  By the row-block reading of the body, what each point writes back is its block of the attention function of the
  whole argument arrays; the 32 blocks cover the result array; so the array ends as that function.
-/
import proofs.«133213_j64974265254301_2_alg».proof.Proof.Gen.KernelIdeal.Value
import proofs.«133213_j64974265254301_2_alg».proof.Proof.RowBlock
import Idealize.ShloMosaic.Lib.StableHlo.Run
import Idealize.ShloMosaic.Lib.Pipeline.Value

noncomputable section

namespace Cert.Attention.Tiles

open Cert.KernelIdeal Cert.KernelIdeal.Gen Cert.Attention
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## The keep factors the region finds -/

/-- The fourth operand of the call, as the host operations before it leave it: the select of 0 or 1 on the mask bits,
    cast from [8, 2048] to [8, 1, 2048]. -/
theorem keepArr (c : Dev nD) : (V m c main_v1 : S8x1x2048.Idx → EReal)
    = shapeCast S8x1x2048 (select (m ((c : Thread nD τ).loc main_arg3))
        (broadcastInDim S8x2048 ![] bcast_S_S8x2048 (constant (F := Ideal) S_ .f32 0x00000000#32))
        (broadcastInDim S8x2048 ![] bcast_S_S8x2048 (constant (F := Ideal) S_ .f32 0x3F800000#32))) shapeCasts_S8x2048_S8x1x2048 := by
  dsimp only [Gen.V]
  simp only [Gen.hostOps0, Gen.hostOps0_1, Gen.hostOps0_2, List.flatten_cons, List.flatten_nil, List.append_nil,
    List.cons_append, List.nil_append]
  after_results
  rfl

/-- At (b, 0, j) it is 0 where the mask bit of (b, j) is set and 1 elsewhere. -/
theorem keep_at (c : Dev nD) (b : Fin 8) (u : Fin 1) (j : Fin 2048) :
    (V m c main_v1 : S8x1x2048.Idx → EReal) (ix3 b u j)
      = Scalar.select (m ((c : Thread nD τ).loc main_arg3) (ix2 b j)) (Ideal.ofBits .f32 0x00000000#32)
          (Ideal.ofBits .f32 0x3F800000#32) := by
  rw [keepArr]
  refine (shapeCast_apply _ shapeCasts_S8x2048_S8x1x2048 (ix3 b u j) (ix2 b j) ?_).trans ?_
  · rw [Shape.rowMajor_val_two, Shape.rowMajor_val_three]
    have hu : u.val = 0 := by omega
    show b.val * 2048 + j.val = (b.val * 1 + u.val) * 2048 + j.val
    rw [hu]; omega
  · rfl

/-! ## The index maps over the grid -/

/-- Every operand's block moves with the result's block on the batch axis; the query block also on the row axis; the
    keys, values and keep factors are whole along their other axes. Decided over the 32 points. -/
theorem idx_facts : ∀ t : Fin cfg0.N,
      win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 7 ∧ win0_4.index t (1 : Fin 3) ≤ 3 ∧ win0_4.index t (2 : Fin 3) = 0 :=
  (by decide +kernel : ∀ t : Fin grid0.N, _)

/-- Every (batch, row block) is some point's. -/
theorem idx_onto : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

/-! ## What a point writes back -/

/-- Point `t` writes back its block of the attention of the whole argument arrays. -/
theorem flushed_eq (c : Dev nD) (t : Fin cfg0.N) :
    (dats m 0 c).flushed 4 t = ((cfg0.win 4).blk t).view.read (Elt Ideal)
      (attention (m ((c : Thread nD τ).loc main_arg0)) (m ((c : Thread nD τ).loc main_arg1))
        (m ((c : Thread nD τ).loc main_arg2)) (m ((c : Thread nD τ).loc main_arg3))) := by
  rw [Value.flushed4]
  unfold out0_4
  rw [View.canon_unit_zero hz]
  simp only [View.ld_unit_zero (S := S1x512x128) hz, View.ld_unit_zero (S := S1x2048x128) hz,
    View.ld_unit_zero (S := S1x1x2048) hz]
  obtain ⟨a00, a01, a02, a10, a11, a12, a20, a21, a22, a30, a31, a32, b0, b1, b2⟩ := idx_facts t
  have hb : win0_4.index t (0 : Fin 3) < 8 := by omega
  have ho : ∀ r : Fin 512, win0_4.index t (1 : Fin 3) * 512 + r.val < 2048 := fun r => by have := r.isLt; omega
  refine funext fun (y : S1x512x128.Idx) => ?_
  obtain ⟨u, r, d, rfl⟩ : ∃ (u : Fin 1) (r : Fin 512) (d : Fin 128), y = ix3 u r d := ⟨y 0, y 1, y 2, eq_ix3 y⟩
  have hu : u.val = 0 := by omega
  show k0_pay1 (F := Ideal) (iblk m c 0 t) (iblk m c 1 t) (iblk m c 2 t) (iblk m c 3 t) (ix3 u r d)
    = attention (m ((c : Thread nD τ).loc main_arg0)) (m ((c : Thread nD τ).loc main_arg1))
        (m ((c : Thread nD τ).loc main_arg2)) (m ((c : Thread nD τ).loc main_arg3))
        (((cfg0.win 4).blk t).view.emb (ix3 u r d))
  refine (Block.block_eq (iblk m c 0 t) (iblk m c 1 t) (iblk m c 2 t) (iblk m c 3 t)
    (m ((c : Thread nD τ).loc main_arg0)) (m ((c : Thread nD τ).loc main_arg1))
    (m ((c : Thread nD τ).loc main_arg2)) (m ((c : Thread nD τ).loc main_arg3))
    ⟨win0_4.index t (0 : Fin 3), hb⟩ (win0_4.index t (1 : Fin 3) * 512) ho ?_ ?_ ?_ ?_ u r d).trans ?_
  · intro r κ
    show V m c main_arg0 (((cfg0.win 0).blk t).view.emb (ix3 (0 : Fin 1) r κ)) = _
    refine (congrArg (V m c main_arg0) (funext fun a => Fin.ext ?_)).trans (congrFun (V_main_arg0 m c) _)
    match a with
    | ⟨0, _⟩ => show win0_0.index t (0 : Fin 3) * 1 + 1 * 0 = win0_4.index t (0 : Fin 3); omega
    | ⟨1, _⟩ => show win0_0.index t (1 : Fin 3) * 512 + 1 * r.val = win0_4.index t (1 : Fin 3) * 512 + r.val; omega
    | ⟨2, _⟩ => show win0_0.index t (2 : Fin 3) * 128 + 1 * κ.val = κ.val; omega
  · intro j κ
    show V m c main_arg1 (((cfg0.win 1).blk t).view.emb (ix3 (0 : Fin 1) j κ)) = _
    refine (congrArg (V m c main_arg1) (funext fun a => Fin.ext ?_)).trans (congrFun (V_main_arg1 m c) _)
    match a with
    | ⟨0, _⟩ => show win0_1.index t (0 : Fin 3) * 1 + 1 * 0 = win0_4.index t (0 : Fin 3); omega
    | ⟨1, _⟩ => show win0_1.index t (1 : Fin 3) * 2048 + 1 * j.val = j.val; omega
    | ⟨2, _⟩ => show win0_1.index t (2 : Fin 3) * 128 + 1 * κ.val = κ.val; omega
  · intro j d'
    show V m c main_arg2 (((cfg0.win 2).blk t).view.emb (ix3 (0 : Fin 1) j d')) = _
    refine (congrArg (V m c main_arg2) (funext fun a => Fin.ext ?_)).trans (congrFun (V_main_arg2 m c) _)
    match a with
    | ⟨0, _⟩ => show win0_2.index t (0 : Fin 3) * 1 + 1 * 0 = win0_4.index t (0 : Fin 3); omega
    | ⟨1, _⟩ => show win0_2.index t (1 : Fin 3) * 2048 + 1 * j.val = j.val; omega
    | ⟨2, _⟩ => show win0_2.index t (2 : Fin 3) * 128 + 1 * d'.val = d'.val; omega
  · intro j
    show (V m c main_v1 : S8x1x2048.Idx → EReal) (((cfg0.win 3).blk t).view.emb (ix3 (0 : Fin 1) (0 : Fin 1) j)) = _
    refine (congrArg (V m c main_v1 : S8x1x2048.Idx → EReal) (funext fun a => Fin.ext ?_)).trans
      (keep_at m c ⟨win0_4.index t (0 : Fin 3), hb⟩ (0 : Fin 1) j)
    match a with
    | ⟨0, _⟩ => show win0_3.index t (0 : Fin 3) * 1 + 1 * 0 = win0_4.index t (0 : Fin 3); omega
    | ⟨1, _⟩ => show win0_3.index t (1 : Fin 3) * 1 + 1 * 0 = 0; omega
    | ⟨2, _⟩ => show win0_3.index t (2 : Fin 3) * 2048 + 1 * j.val = j.val; omega
  · refine congrArg (attention (m ((c : Thread nD τ).loc main_arg0)) (m ((c : Thread nD τ).loc main_arg1))
      (m ((c : Thread nD τ).loc main_arg2)) (m ((c : Thread nD τ).loc main_arg3))) (funext fun a => Fin.ext ?_)
    match a with
    | ⟨0, _⟩ => show win0_4.index t (0 : Fin 3) = win0_4.index t (0 : Fin 3) * 1 + 1 * u.val; omega
    | ⟨1, _⟩ => show win0_4.index t (1 : Fin 3) * 512 + r.val = win0_4.index t (1 : Fin 3) * 512 + 1 * r.val; omega
    | ⟨2, _⟩ => show d.val = win0_4.index t (2 : Fin 3) * 128 + 1 * d.val; omega

/-! ## The blocks cover the array -/

/-- An index of the result array is in point `t`'s block iff each coordinate is in the block's range on its axis. -/
theorem mem_blk (t : Fin cfg0.N) (i : S8x2048x128.Idx) :
    i ∈ ((cfg0.win 4).blk t).view.set ↔ ∀ a : Fin 3, win0_4.index t a * S1x512x128.size a ≤ (i a).val
      ∧ (i a).val < win0_4.index t a * S1x512x128.size a + S1x512x128.size a := by
  show i ∈ ((View.whole main_v2).slice (win0_4.rect t)).set ↔ _
  rw [View.set_slice_whole, Rect.mem_set_unit]
  exact Iff.rfl

/-- Row r of batch b lies in the block of the point (b, r / 512). -/
theorem cover (i : S8x2048x128.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1; omega
  | ⟨1, _⟩ =>
    show win0_4.index t (1 : Fin 3) * 512 ≤ (i 1).val ∧ (i 1).val < win0_4.index t (1 : Fin 3) * 512 + 512; omega
  | ⟨2, _⟩ =>
    show win0_4.index t (2 : Fin 3) * 128 ≤ (i 2).val ∧ (i 2).val < win0_4.index t (2 : Fin 3) * 128 + 128; omega

/-! ## The array after the run -/

/-- The result array ends as the attention of the argument arrays. -/
theorem final (c : Dev nD) : (dats m 0 c).arrAt 4 cfg0.N
    = attention (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- The kernel program's run: the result at the attention of the arguments, the arguments unchanged. -/
theorem run : θ_run defs (onTc (τ := τ) (main (F := Ideal))) ⟨m, fun _ => 0, ρ⟩ fun r => ∀ c : Dev nD,
      r.2.mem ((c : Thread nD τ).loc main_v2)
        = attention (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Attention.Tiles

end
-- ==== Proof.lean ====
/-
  Scaled dot-product attention with a key-padding mask over f32[8, 2048, 128] queries, keys and values: a kernel on a
  grid of (batch, block of 512 query rows) against the plain batched computation.

  Both programs compute, for every batch b, query row r and output column d,
      ∑_j (w_j / ∑_j' w_j') · v[b, j, d],   w_j = mask[b, j] ? 0 : exp (s_j − max_j' s_j'),   s_j = ⟨q[b, r], k[b, j]⟩ / D,
  with D the f32 word nearest to √128 (Proof/Attention.lean). The reference divides the scores by D; the kernel multiplies
  them by a constant that the certificate's table names the exact reciprocal 1/D, and x · (1/D) = x / D on every
  extended real. The reference selects 0 on the mask bit; the kernel multiplies by a factor that the host operations
  before the call set to 0 on the mask bit and 1 elsewhere, and e · 0 = 0, e · 1 = e on every extended real. The two
  matrix products are the same sums, the two reductions along the keys the same maximum from −∞ and the same sum,
  at the ideal values; no step needs the inputs to be finite.
  Proof/Reference.lean reads the reference's run as that function; Proof/RowBlock.lean reads one grid point's stored
  block as rows of it; Proof/Tiles.lean assembles the 32 blocks into the whole array.
-/
import proofs.«133213_j64974265254301_2_alg».proof.Defs
import proofs.«133213_j64974265254301_2_alg».proof.Proof.Gen.Kernel
import proofs.«133213_j64974265254301_2_alg».proof.Proof.Gen.Kernel.Skeleton
import proofs.«133213_j64974265254301_2_alg».proof.Proof.Gen.Kernel.Launch
import proofs.«133213_j64974265254301_2_alg».proof.Proof.Gen.Kernel.Points
import proofs.«133213_j64974265254301_2_alg».proof.Proof.Gen.Kernel.Frame
import proofs.«133213_j64974265254301_2_alg».proof.Proof.Gen.KernelIdeal
import proofs.«133213_j64974265254301_2_alg».proof.Proof.Gen.KernelIdeal.Skeleton
import proofs.«133213_j64974265254301_2_alg».proof.Proof.Gen.KernelIdeal.Launch
import proofs.«133213_j64974265254301_2_alg».proof.Proof.Gen.KernelIdeal.Points
import proofs.«133213_j64974265254301_2_alg».proof.Proof.Gen.KernelIdeal.Frame
import proofs.«133213_j64974265254301_2_alg».proof.Proof.Gen.ReferenceIdeal
import proofs.«133213_j64974265254301_2_alg».proof.Proof.Gen.Pre_finite_inputs
import proofs.«133213_j64974265254301_2_alg».proof.Proof.Gen.KernelIdeal.Value
import proofs.«133213_j64974265254301_2_alg».proof.Proof.Gen.ReferenceIdeal.Run
import proofs.«133213_j64974265254301_2_alg».proof.Proof.Gen.ReferenceIdeal.Read
import proofs.«133213_j64974265254301_2_alg».proof.Proof.Reference
import proofs.«133213_j64974265254301_2_alg».proof.Proof.Tiles
import Idealize.ShloMosaic.Adequacy
import Idealize.ShloMosaic.Init

noncomputable section

namespace Cert.Proof

open Idealize.ShloMosaic Idealize.SL.Sem Cert.Kernel

/-- The word-level kernel program runs and leaves its arguments as they were. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference program's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the scale constant is named the exact reciprocal of the reference's divisor. -/
theorem preserves : Cert.preserves_Kernel_KernelIdeal :=
  IdealRules.named_const.statement Cert.KernelIdeal.κ "fold_c_1048576_11863283" .f32 0x3DB504F3#32
    ((1048576 / 11863283 : ℝ) : EReal) rfl

/-- From memories that agree on the arguments both programs end with the attention of those arguments. -/
theorem algebraic : Cert.algebraic_KernelIdeal_ReferenceIdeal := by
  intro m ρ m' ρ' _ hagree
  refine ⟨_, Cert.Attention.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Attention.Reference.result_eq,
    (hagree c).1, (hagree c).2.1, (hagree c).2.2.1, (hagree c).2.2.2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
